-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S16384x128 : Shape := ⟨2, ![16384, 128]⟩
abbrev S16384x1 : Shape := ⟨2, ![16384, 1]⟩
abbrev S1024x128 : Shape := ⟨2, ![1024, 128]⟩
abbrev S1024x1 : Shape := ⟨2, ![1024, 1]⟩
abbrev S1024 : Shape := ⟨1, ![1024]⟩
abbrev S1024x1024 : Shape := ⟨2, ![1024, 1024]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x1, .f32⟩
  | .hbm, ⟨3, _⟩ => ⟨S16384x1, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  reduces_S1024x1024_S1024 : S1024x1024.Reduces [1] S1024
  reducesTo_S16384x1_S_d0_1 : S16384x1.ReducesTo [0, 1] S_
  h_S_ : 0 < S_.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond3 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩

abbrev nBuf : Space → Nat
  | .hbm => 46
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x128, .f32⟩
  | .hbm, ⟨21, _⟩ => ⟨S16384x128, .f32⟩
  | .hbm, ⟨22, _⟩ => ⟨S16384x16384, .f32⟩
  | .hbm, ⟨23, _⟩ => ⟨S_, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S16384x128, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S_S16384x16384 : S_.BroadcastsInDim S16384x16384 (![] : Fin 0 → Fin S16384x16384.rank)
  bcast_S_S16384 : S_.BroadcastsInDim S16384 (![] : Fin 0 → Fin S16384.rank)
  reducesTo_S16384x16384_S16384_d1 : S16384x16384.ReducesTo [1] S16384
  reducesTo_S16384_S_d0 : S16384.ReducesTo [0] S_
  dot_S16384x128_S16384x128_S16384x16384_1_1_0_0_n_n_wf : DotDims.WF S16384x128 S16384x128 S16384x16384 [1] [1] [0] [0] [] []

variable [Facts₀]

def dot_S16384x128_S16384x128_S16384x16384_1_1_0_0_n_n : DotDims S16384x128 S16384x128 S16384x16384 where
  lhsContracting := [1]
  rhsContracting := [1]
  lhsNonContracting := [0]
  rhsNonContracting := [0]
  lhsBatch := []
  rhsBatch := []
  wf := dot_S16384x128_S16384x128_S16384x16384_1_1_0_0_n_n_wf

class Facts : Prop extends Facts₀ where

variable [Facts]
-- ==== Proof.Spec.lean ====
/-
  The mathematics of the cross-view contrastive loss, over plain rows of extended reals.

  Every row of the two inputs is divided by its length, clamped below at a small floor. Two rows' similarity is the
  inner product of their scaled copies; a pair's weight is the exponential of the similarity over the temperature
  1/2. For row R, the numerator is the weight of the pair (R, R), the denominator the sum over every column C of the
  weight of (R, C) plus a small shift, and the loss is minus the mean over R of the logarithm of their quotient.

  Two spellings meet here. One program divides the similarity by 1/2, the other multiplies it by 2: on the
  extended reals these agree everywhere, since the quotient by a nonzero real is the product with its reciprocal, at
  the infinities too. One program sums a row's 16384 weights at once, the other in 16 consecutive groups of 1024
  columns added left to right from zero: addition of extended reals is associative and commutative, so the grouped sum
  is the whole sum. Neither law needs a finite input.
-/
import Idealize.ShloMosaic.PureOps.Ideal.Laws
import Idealize.ShloMosaic.Lib.ValueIdx

noncomputable section

namespace Cert.Contrast

open Idealize.ShloMosaic

/-! ## The two spellings of the temperature -/

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- Dividing by the temperature 1/2 is multiplying by 2, on every extended real. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

/-! ## Rows -/

/-- A row's length, clamped below at the floor. -/
def rowLen (v : Fin 128 → EReal) : EReal :=
  max (Ideal.sqrt (∑ d : Fin 128, v d * v d)) (Ideal.ofBits .f32 0x2B8CBCCC#32)

/-- A row divided by its clamped length. -/
def unitRow (v : Fin 128 → EReal) (d : Fin 128) : EReal := Ideal.div (v d) (rowLen v)

/-- Two rows' similarity: the inner product of their scaled copies. -/
def cosine (u v : Fin 128 → EReal) : EReal := ∑ d : Fin 128, unitRow u d * unitRow v d

/-- A pair's weight, spelt with the product by 2. -/
def weight (u v : Fin 128 → EReal) : EReal := Ideal.exp (cosine u v * Ideal.ofBits .f32 0x40000000#32)

/-- The same weight spelt with the quotient by 1/2. -/
theorem exp_div_half (u v : Fin 128 → EReal) :
    Ideal.exp (Ideal.div (cosine u v) (Ideal.ofBits .f32 0x3F000000#32)) = weight u v := by
  rw [div_half]; rfl

/-! ## The loss -/

/-- Row R's numerator: the weight of the pair (R, R). -/
def posAt (a b : Fin 16384 → Fin 128 → EReal) (R : Fin 16384) : EReal := weight (a R) (b R)

/-- Row R's denominator: the weights of (R, C) summed over every C, plus the shift. -/
def denAt (a b : Fin 16384 → Fin 128 → EReal) (R : Fin 16384) : EReal :=
  (∑ C : Fin 16384, weight (a R) (b C)) + Ideal.ofBits .f32 0x322BCC77#32

/-- Minus the mean over the rows of the logarithm of numerator over denominator. -/
def loss (a b : Fin 16384 → Fin 128 → EReal) : EReal :=
  -(Ideal.div (∑ R : Fin 16384, Ideal.log (Ideal.div (posAt a b R) (denAt a b R))) (Ideal.ofBits .f32 0x46800000#32))

/-! ## Sixteen groups of 1024 rows -/

/-- Row r of group i, among the 16384 rows (total in i: reduced modulo 16384, which changes nothing for i < 16). -/
def tileRow (i : ℕ) (r : Fin 1024) : Fin 16384 := ⟨(1024 * i + r.val) % 16384, Nat.mod_lt _ (by decide)⟩

theorem tileRow_val {i : ℕ} (hi : i < 16) (r : Fin 1024) : (tileRow i r).val = 1024 * i + r.val := by
  have := r.isLt
  show (1024 * i + r.val) % 16384 = _
  omega

/-- Group and position are another name for a row. -/
def tileEquiv : Fin 16 × Fin 1024 ≃ Fin 16384 where
  toFun x := tileRow x.1.val x.2
  invFun C := (⟨C.val / 1024, by have := C.isLt; omega⟩, ⟨C.val % 1024, Nat.mod_lt _ (by decide)⟩)
  left_inv x := by
    obtain ⟨j, c⟩ := x
    have hj := j.isLt
    have hc := c.isLt
    have h := tileRow_val hj c
    refine Prod.ext (Fin.ext ?_) (Fin.ext ?_)
    · show (tileRow j.val c).val / 1024 = j.val
      omega
    · show (tileRow j.val c).val % 1024 = c.val
      omega
  right_inv C := by
    have hC := C.isLt
    refine Fin.ext ?_
    show (1024 * (C.val / 1024) + C.val % 1024) % 16384 = C.val
    omega

/-- The weights of one row against the 1024 rows of group j. -/
def tileSum (u : Fin 128 → EReal) (b : Fin 16384 → Fin 128 → EReal) (j : ℕ) : EReal :=
  ∑ c : Fin 1024, weight u (b (tileRow j c))

/-- The sixteen groups' sums, added up, are the sum over all 16384 rows. -/
theorem sum_tiles (u : Fin 128 → EReal) (b : Fin 16384 → Fin 128 → EReal) :
    ∑ j ∈ Finset.range 16, tileSum u b j = ∑ C : Fin 16384, weight u (b C) := by
  rw [Finset.sum_range]
  unfold tileSum
  rw [← Fintype.sum_prod_type' (f := fun (j : Fin 16) (c : Fin 1024) => weight u (b (tileRow j.val c)))]
  exact Fintype.sum_equiv tileEquiv _ _ (fun _ => rfl)

/-! ## Arrays as rows -/

/-- Row R of a [16384, 128] array. -/
def rowsOf (A : (⟨2, ![16384, 128]⟩ : Shape).Idx → EReal) (R : Fin 16384) (d : Fin 128) : EReal := A (ValueIdx.ix2 R d)

/-- Row r of a [1024, 128] block. -/
def blockRow (X : (⟨2, ![1024, 128]⟩ : Shape).Idx → EReal) (r : Fin 1024) (d : Fin 128) : EReal := X (ValueIdx.ix2 r d)

/-- The indices of a vector of 16384 entries are its 16384 positions. -/
def vecEquiv : (⟨1, ![16384]⟩ : Shape).Idx ≃ Fin 16384 where
  toFun j := j 0
  invFun R := ValueIdx.ix1 R
  left_inv j := (ValueIdx.eq_ix1 j).symm
  right_inv _ := rfl

/-- The indices of a column of 16384 entries are its 16384 positions. -/
def colEquiv : (⟨2, ![16384, 1]⟩ : Shape).Idx ≃ Fin 16384 where
  toFun j := j 0
  invFun R := ValueIdx.ix2 R (0 : Fin 1)
  left_inv j := by
    have h : j 1 = (0 : Fin 1) := Fin.ext (by have := ValueIdx.idx2_lt1 j; show (j 1).val = 0; omega)
    exact ((ValueIdx.eq_ix2 j).trans (congrArg (ValueIdx.ix2 (j 0)) h)).symm
  right_inv _ := rfl

end Cert.Contrast

end
-- ==== Proof.RefIsSpec.lean ====
/-
  The reference program's result is the loss of the specification.

  Read one operation at a time: a row of each input is divided by its clamped length; the [16384, 16384] similarity
  matrix is the inner products of the scaled rows; its entries over the temperature are exponentiated and summed along
  each row, and shifted; the numerator is the exponential of each row's own inner product over the temperature; and the
  result is minus the mean of the logarithms of the quotients. The only step that is not a re-spelling is the
  temperature: this program divides by 1/2, where the specification's weight multiplies by 2.
-/
import proofs.«105710_j69896297775438_1_alg».proof.Proof.Gen.ReferenceIdeal.Read
import proofs.«105710_j69896297775438_1_alg».proof.Proof.Spec

noncomputable section

namespace Cert.Contrast.Ref

open Idealize.ShloMosaic Idealize.ShloMosaic.ValueIdx
open Cert.ReferenceIdeal Cert.ReferenceIdeal.Read Cert.Contrast

variable (x0 x1 : (⟨S16384x128, .f32⟩ : BufTy).Contents (Elt Ideal))

/-! ## The composed index maps, as coordinates -/

theorem row_of_v1 (R : Fin 16384) (d k : Fin 128) :
    idx_main_v1 (idx_main_v2 (idx_main_v6 (ix2 R d))) k = ix2 R k :=
  funext fun a => Fin.ext (by match a with | ⟨0, _⟩ => rfl | ⟨1, _⟩ => rfl)

theorem row_of_v9 (R : Fin 16384) (d k : Fin 128) :
    idx_main_v9 (idx_main_v10 (idx_main_v14 (ix2 R d))) k = ix2 R k :=
  funext fun a => Fin.ext (by match a with | ⟨0, _⟩ => rfl | ⟨1, _⟩ => rfl)

theorem lrow_of_v16 (R C : Fin 16384) (k : Fin 128) : lidx_main_v16 (ix2 R C) k = ix2 R k :=
  funext fun a => Fin.ext (by match a with | ⟨0, _⟩ => rfl | ⟨1, _⟩ => rfl)

theorem rrow_of_v16 (R C : Fin 16384) (k : Fin 128) : ridx_main_v16 (ix2 R C) k = ix2 C k :=
  funext fun a => Fin.ext (by match a with | ⟨0, _⟩ => rfl | ⟨1, _⟩ => rfl)

theorem row_of_v21 (R : Fin 16384) (k : Fin 128) : idx_main_v21 (ix1 R) k = ix2 R k :=
  funext fun a => Fin.ext (by match a with | ⟨0, _⟩ => rfl | ⟨1, _⟩ => rfl)

theorem row_of_v25 (R : Fin 16384) (k : Fin 16384) : idx_main_v25 (ix1 R) k = ix2 R k :=
  funext fun a => Fin.ext (by match a with | ⟨0, _⟩ => rfl | ⟨1, _⟩ => rfl)

/-! ## The stages -/

/-- The first input's rows, each divided by its clamped length. -/
theorem scaled0 (R : Fin 16384) (d : Fin 128) :
    val_main_v7 (F := Ideal) x0 (ix2 R d) = unitRow (rowsOf x0 R) d := by
  rw [val_main_v7_apply, val_main_v6_apply, val_main_v5_apply, val_main_v3_apply, val_main_v2_apply, val_main_v1_apply,
    val_main_v4_apply, val_main_cst_0_apply, val_main_cst_apply]
  simp only [val_main_v0_apply, row_of_v1, Ideal.hostDivf_def, Ideal.maximumf_def, Ideal.hostUnary_sqrt_def, Ideal.mulf_def,
    Ideal.ofBits_def, Ideal.ofBits_zero_f32, zero_add]
  rfl

/-- The second input's rows, each divided by its clamped length. -/
theorem scaled1 (R : Fin 16384) (d : Fin 128) :
    val_main_v15 (F := Ideal) x1 (ix2 R d) = unitRow (rowsOf x1 R) d := by
  rw [val_main_v15_apply, val_main_v14_apply, val_main_v13_apply, val_main_v11_apply, val_main_v10_apply, val_main_v9_apply,
    val_main_v12_apply, val_main_cst_2_apply, val_main_cst_1_apply]
  simp only [val_main_v8_apply, row_of_v9, Ideal.hostDivf_def, Ideal.maximumf_def, Ideal.hostUnary_sqrt_def, Ideal.mulf_def,
    Ideal.ofBits_def, Ideal.ofBits_zero_f32, zero_add]
  rfl

/-- The similarity matrix: entry (R, C) is the inner product of scaled row R of the first input and scaled row C of the second. -/
theorem similarity (R C : Fin 16384) :
    val_main_v16 (F := Ideal) x0 x1 (ix2 R C) = cosine (rowsOf x0 R) (rowsOf x1 C) := by
  rw [val_main_v16_apply]
  refine Finset.sum_congr rfl fun k _ => ?_
  rw [lrow_of_v16, rrow_of_v16, scaled0, scaled1]

/-- Its entries over the temperature, exponentiated: the pair's weight. -/
theorem weights (R C : Fin 16384) :
    val_main_v19 (F := Ideal) x0 x1 (ix2 R C) = weight (rowsOf x0 R) (rowsOf x1 C) := by
  rw [val_main_v19_apply, val_main_v18_apply, val_main_v17_apply, val_main_cst_3_apply, similarity]
  simp only [Ideal.hostUnary_exp_def, Ideal.hostDivf_def, Ideal.ofBits_def]
  exact exp_div_half _ _

/-- The denominators. -/
theorem denominators (R : Fin 16384) :
    val_main_v27 (F := Ideal) x0 x1 (ix1 R) = denAt (rowsOf x0) (rowsOf x1) R := by
  rw [val_main_v27_apply, val_main_v26_apply, val_main_cst_7_apply, val_main_v25_apply, val_main_cst_6_apply]
  simp only [row_of_v25, weights, Ideal.addf_def, Ideal.ofBits_def, Ideal.ofBits_zero_f32, zero_add]
  rfl

/-- The numerators. -/
theorem numerators (R : Fin 16384) :
    val_main_v24 (F := Ideal) x0 x1 (ix1 R) = posAt (rowsOf x0) (rowsOf x1) R := by
  rw [val_main_v24_apply, val_main_v23_apply, val_main_v22_apply, val_main_cst_5_apply, val_main_v21_apply, val_main_cst_4_apply]
  simp only [val_main_v20_apply, row_of_v21, scaled0, scaled1, Ideal.hostUnary_exp_def, Ideal.hostDivf_def, Ideal.mulf_def,
    Ideal.ofBits_def, Ideal.ofBits_zero_f32, zero_add]
  exact exp_div_half _ _

/-- The logarithms of the quotients, one per row. -/
theorem logs (R : Fin 16384) :
    val_main_v29 (F := Ideal) x0 x1 (ix1 R)
      = Ideal.log (Ideal.div (posAt (rowsOf x0) (rowsOf x1) R) (denAt (rowsOf x0) (rowsOf x1) R)) := by
  rw [val_main_v29_apply, val_main_v28_apply, numerators, denominators]
  simp only [Ideal.hostUnary_log_def, Ideal.hostDivf_def]

/-- Their sum over the vector's indices is their sum over the 16384 rows. -/
theorem logs_sum :
    (∑ j : S16384.Idx, val_main_v29 (F := Ideal) x0 x1 j)
      = ∑ R : Fin 16384, Ideal.log (Ideal.div (posAt (rowsOf x0) (rowsOf x1) R) (denAt (rowsOf x0) (rowsOf x1) R)) :=
  Fintype.sum_equiv vecEquiv _ _ fun j => (congrArg (val_main_v29 (F := Ideal) x0 x1) (eq_ix1 j)).trans (logs x0 x1 (j 0))

/-- The result: minus the mean of the logarithms of numerator over denominator. -/
theorem result_eq : val_main_v32 (F := Ideal) x0 x1 = fun _ => loss (rowsOf x0) (rowsOf x1) := by
  funext i
  rw [val_main_v32_apply, val_main_v31_apply, val_main_cst_9_apply, val_main_v30_apply, val_main_cst_8_apply]
  simp only [Ideal.hostNegf_def, Ideal.negf_def, Ideal.hostDivf_def, Ideal.ofBits_def, Ideal.ofBits_zero_f32, zero_add]
  rw [logs_sum]
  rfl

end Cert.Contrast.Ref

end
-- ==== Proof.Pieces.lean ====
/-
  What each of the body's six control cases leaves in the two carried accumulators and, at a row's last column
  tile, in the two output blocks — as the body's own arithmetic (the payloads of its stores) applied to the two input
  blocks and to what the accumulators held before. Stated for any float instance.

  The cases, by the point's position (row tile i, column tile j):
    first column tile, on the diagonal (i = j = 0):    both accumulators restart from zero and both add their term;
    first column tile, off the diagonal:               both restart from zero, only the denominator adds its term;
    a middle column tile, off / on the diagonal:       the denominator adds its term; the numerator adds its term on
                                                       the diagonal only;
    the last column tile, off / on the diagonal:       as a middle tile, and then the denominator plus the shift and the
                                                       numerator are stored into the output blocks.
  Every store covers its whole buffer from offset zero, so a buffer's contents after the body are the last store's
  payload, and a load that follows a store reads that store's payload.
-/
import proofs.«105710_j69896297775438_1_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.Contrast.Pieces

open Cert.KernelIdeal Cert.KernelIdeal.Gen

variable {F : FTy → Type} [FloatOps F]
variable (c : Dev nD) (i : grid0.Coords)
  (a2 : Memref sig .tc .vmem S1024x128 .f32) (h2 : a2.IsWhole) (a3 : Memref sig .tc .vmem S1024x128 .f32) (h3 : a3.IsWhole)
  (a4 : Memref sig .tc .vmem S1024x1 .f32) (h4 : a4.IsWhole) (a5 : Memref sig .tc .vmem S1024x1 .f32) (h5 : a5.IsWhole)
  (a6 : Memref sig .tc .vmem S1024x1 .f32) (h6 : a6.IsWhole) (a7 : Memref sig .tc .vmem S1024x1 .f32) (h7 : a7.IsWhole)
  (x0 x1 : Vec F S1024x128 .f32) (xs0 xs1 : Vec F S1024x1 .f32)

/-- The zero offsets of a whole-buffer access, however they are spelt. -/
theorem hz : (![0, 0] : Fin 2 → Nat) = fun _ => 0 := funext fun a => by fin_cases a <;> rfl

/-! ## First column tile, on the diagonal -/

/-- The denominator accumulator restarts: zero plus this tile's row sums. -/
theorem den_A (hc0 : cond0_0 i) (hc1 : cond0_1 i) (hc2 : ¬cond0_2 i) :
    sout0_A_0 c i a2 h2 a3 h3 a4 h4 a5 h5 a6 h6 a7 h7 hc0 hc1 hc2 x0 x1 = k0_pay6 x0 x1 (k0_pay2 (F := F)) := by
  unfold sout0_A_0
  rw [View.read_writes_eq_canon _ _ _ (scover0_A_0 c i a2 h2 a3 h3 a4 h4 a5 h5 a6 h6 a7 h7 hc0 hc1 hc2 x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, h6.read_unread, h7.read_unread,
    View.ld_unit_zero (S := S1024x128) hz, View.ld_unit_zero (S := S1024x1) hz]

/-- The numerator accumulator restarts: zero plus the diagonal term. -/
theorem num_A (hc0 : cond0_0 i) (hc1 : cond0_1 i) (hc2 : ¬cond0_2 i) :
    sout0_A_1 c i a2 h2 a3 h3 a4 h4 a5 h5 a6 h6 a7 h7 hc0 hc1 hc2 x0 x1 = k0_pay7 x0 x1 (k0_pay3 (F := F)) := by
  unfold sout0_A_1
  rw [View.read_writes_eq_canon _ _ _ (scover0_A_1 c i a2 h2 a3 h3 a4 h4 a5 h5 a6 h6 a7 h7 hc0 hc1 hc2 x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, h6.read_unread, h7.read_unread,
    View.ld_unit_zero (S := S1024x128) hz, View.ld_unit_zero (S := S1024x1) hz]

/-! ## First column tile, off the diagonal -/

theorem den_D (hc0 : cond0_0 i) (hc1 : ¬cond0_1 i) (hc2 : ¬cond0_2 i) :
    sout0_D_0 c i a2 h2 a3 h3 a4 h4 a5 h5 a6 h6 a7 h7 hc0 hc1 hc2 x0 x1 = k0_pay6 x0 x1 (k0_pay2 (F := F)) := by
  unfold sout0_D_0
  rw [View.read_writes_eq_canon _ _ _ (scover0_D_0 c i a2 h2 a3 h3 a4 h4 a5 h5 a6 h6 a7 h7 hc0 hc1 hc2 x0 x1)]
  unfold kernelRun0_D
  dsimp only
  sl_unfold_words
  rw [View.canon_cons_unit_zero (S := S1024x1) hz, View.readCov_unit_zero (S := S1024x1) _ hz]
  simp only [View.readAt_eq_ld, h2.read_unread, h3.read_unread, h6.read_unread, h7.read_unread,
    View.ld_unit_zero (S := S1024x128) hz, View.ld_unit_zero (S := S1024x1) hz]

/-- The numerator accumulator restarts at zero and stays there. -/
theorem num_D (hc0 : cond0_0 i) (hc1 : ¬cond0_1 i) (hc2 : ¬cond0_2 i) :
    sout0_D_1 c i a2 h2 a3 h3 a4 h4 a5 h5 a6 h6 a7 h7 hc0 hc1 hc2 x0 x1 = k0_pay3 (F := F) := by
  unfold sout0_D_1
  rw [View.read_writes_eq_canon _ _ _ (scover0_D_1 c i a2 h2 a3 h3 a4 h4 a5 h5 a6 h6 a7 h7 hc0 hc1 hc2 x0 x1)]
  unfold kernelRun0_D
  dsimp only
  sl_unfold_words
  rw [View.canon_cons_unit_zero (S := S1024x1) hz]

/-! ## A middle column tile, off the diagonal -/

theorem den_B (hc0 : ¬cond0_0 i) (hc1 : ¬cond0_1 i) (hc2 : ¬cond0_2 i) :
    sout0_B_0 c i a2 h2 a3 h3 a4 h4 a5 h5 a6 h6 a7 h7 hc0 hc1 hc2 x0 x1 xs0 xs1 = k0_pay6 x0 x1 xs0 := by
  unfold sout0_B_0
  rw [View.read_writes_eq_canon _ _ _ (scover0_B_0 c i a2 h2 a3 h3 a4 h4 a5 h5 a6 h6 a7 h7 hc0 hc1 hc2 x0 x1 xs0 xs1)]
  unfold kernelRun0_B
  dsimp only
  sl_unfold_words
  rw [View.canon_cons_unit_zero (S := S1024x1) hz]
  simp only [View.readAt_eq_ld, h2.read_unread, h3.read_unread, h6.read_unread, h7.read_unread,
    View.ld_unit_zero (S := S1024x128) hz, View.ld_unit_zero (S := S1024x1) hz]

/-- The numerator accumulator is not touched. -/
theorem num_B (hc0 : ¬cond0_0 i) (hc1 : ¬cond0_1 i) (hc2 : ¬cond0_2 i) :
    sout0_B_1 c i a2 h2 a3 h3 a4 h4 a5 h5 a6 h6 a7 h7 hc0 hc1 hc2 x0 x1 xs0 xs1 = xs1 := rfl

/-! ## A middle column tile, on the diagonal -/

theorem den_E (hc0 : ¬cond0_0 i) (hc1 : cond0_1 i) (hc2 : ¬cond0_2 i) :
    sout0_E_0 c i a2 h2 a3 h3 a4 h4 a5 h5 a6 h6 a7 h7 hc0 hc1 hc2 x0 x1 xs0 xs1 = k0_pay6 x0 x1 xs0 := by
  unfold sout0_E_0
  rw [View.read_writes_eq_canon _ _ _ (scover0_E_0 c i a2 h2 a3 h3 a4 h4 a5 h5 a6 h6 a7 h7 hc0 hc1 hc2 x0 x1 xs0 xs1)]
  unfold kernelRun0_E
  dsimp only
  sl_unfold_words
  rw [View.canon_cons_unit_zero (S := S1024x1) hz]
  simp only [View.readAt_eq_ld, h2.read_unread, h3.read_unread, h6.read_unread, h7.read_unread,
    View.ld_unit_zero (S := S1024x128) hz, View.ld_unit_zero (S := S1024x1) hz]

theorem num_E (hc0 : ¬cond0_0 i) (hc1 : cond0_1 i) (hc2 : ¬cond0_2 i) :
    sout0_E_1 c i a2 h2 a3 h3 a4 h4 a5 h5 a6 h6 a7 h7 hc0 hc1 hc2 x0 x1 xs0 xs1 = k0_pay7 x0 x1 xs1 := by
  unfold sout0_E_1
  rw [View.read_writes_eq_canon _ _ _ (scover0_E_1 c i a2 h2 a3 h3 a4 h4 a5 h5 a6 h6 a7 h7 hc0 hc1 hc2 x0 x1 xs0 xs1)]
  unfold kernelRun0_E
  dsimp only
  sl_unfold_words
  rw [View.canon_cons_unit_zero (S := S1024x1) hz]
  simp only [View.readAt_eq_ld, h2.read_unread, h3.read_unread, h6.read_unread, h7.read_unread,
    View.ld_unit_zero (S := S1024x128) hz, View.ld_unit_zero (S := S1024x1) hz]

/-! ## The last column tile, off the diagonal -/

theorem den_C (hc0 : ¬cond0_0 i) (hc1 : ¬cond0_1 i) (hc2 : cond0_2 i) :
    sout0_C_0 c i a2 h2 a3 h3 a4 h4 a5 h5 a6 h6 a7 h7 hc0 hc1 hc2 x0 x1 xs0 xs1 = k0_pay6 x0 x1 xs0 := by
  unfold sout0_C_0
  rw [View.read_writes_eq_canon _ _ _ (scover0_C_0 c i a2 h2 a3 h3 a4 h4 a5 h5 a6 h6 a7 h7 hc0 hc1 hc2 x0 x1 xs0 xs1)]
  unfold kernelRun0_C
  dsimp only
  sl_unfold_words
  rw [View.canon_cons_unit_zero (S := S1024x1) hz]
  simp only [View.readAt_eq_ld, h2.read_unread, h3.read_unread, h6.read_unread, h7.read_unread,
    View.ld_unit_zero (S := S1024x128) hz, View.ld_unit_zero (S := S1024x1) hz]

theorem num_C (hc0 : ¬cond0_0 i) (hc1 : ¬cond0_1 i) (hc2 : cond0_2 i) :
    sout0_C_1 c i a2 h2 a3 h3 a4 h4 a5 h5 a6 h6 a7 h7 hc0 hc1 hc2 x0 x1 xs0 xs1 = xs1 := rfl

/-- The denominator block written out: the finished accumulator plus the shift. -/
theorem denOut_C (hc0 : ¬cond0_0 i) (hc1 : ¬cond0_1 i) (hc2 : cond0_2 i) :
    out0_C_3 c i a2 h2 a3 h3 a4 h4 a5 h5 a6 h6 a7 h7 hc0 hc1 hc2 x0 x1 xs0 xs1 = k0_pay1 (k0_pay6 x0 x1 xs0) := by
  unfold out0_C_3
  rw [View.read_writes_eq_canon _ _ _ (cover0_C_3 c i a2 h2 a3 h3 a4 h4 a5 h5 a6 h6 a7 h7 hc0 hc1 hc2 x0 x1 xs0 xs1)]
  unfold kernelRun0_C
  dsimp only
  sl_unfold_words
  rw [View.canon_cons_unit_zero (S := S1024x1) hz, View.readCov_unit_zero (S := S1024x1) _ hz]
  simp only [View.readAt_eq_ld, h2.read_unread, h3.read_unread, h6.read_unread, h7.read_unread,
    View.ld_unit_zero (S := S1024x128) hz, View.ld_unit_zero (S := S1024x1) hz]

/-- The numerator block written out: the accumulator as it stood. -/
theorem numOut_C (hc0 : ¬cond0_0 i) (hc1 : ¬cond0_1 i) (hc2 : cond0_2 i) :
    out0_C_2 c i a2 h2 a3 h3 a4 h4 a5 h5 a6 h6 a7 h7 hc0 hc1 hc2 x0 x1 xs0 xs1 = xs1 := by
  unfold out0_C_2
  rw [View.read_writes_eq_canon _ _ _ (cover0_C_2 c i a2 h2 a3 h3 a4 h4 a5 h5 a6 h6 a7 h7 hc0 hc1 hc2 x0 x1 xs0 xs1)]
  unfold kernelRun0_C
  dsimp only
  sl_unfold_words
  rw [View.canon_cons_unit_zero (S := S1024x1) hz]
  simp only [View.readAt_eq_ld, h2.read_unread, h3.read_unread, h6.read_unread, h7.read_unread,
    View.ld_unit_zero (S := S1024x128) hz, View.ld_unit_zero (S := S1024x1) hz]

/-! ## The last column tile, on the diagonal -/

theorem den_F (hc0 : ¬cond0_0 i) (hc1 : cond0_1 i) (hc2 : cond0_2 i) :
    sout0_F_0 c i a2 h2 a3 h3 a4 h4 a5 h5 a6 h6 a7 h7 hc0 hc1 hc2 x0 x1 xs0 xs1 = k0_pay6 x0 x1 xs0 := by
  unfold sout0_F_0
  rw [View.read_writes_eq_canon _ _ _ (scover0_F_0 c i a2 h2 a3 h3 a4 h4 a5 h5 a6 h6 a7 h7 hc0 hc1 hc2 x0 x1 xs0 xs1)]
  unfold kernelRun0_F
  dsimp only
  sl_unfold_words
  rw [View.canon_cons_unit_zero (S := S1024x1) hz]
  simp only [View.readAt_eq_ld, h2.read_unread, h3.read_unread, h6.read_unread, h7.read_unread,
    View.ld_unit_zero (S := S1024x128) hz, View.ld_unit_zero (S := S1024x1) hz]

theorem num_F (hc0 : ¬cond0_0 i) (hc1 : cond0_1 i) (hc2 : cond0_2 i) :
    sout0_F_1 c i a2 h2 a3 h3 a4 h4 a5 h5 a6 h6 a7 h7 hc0 hc1 hc2 x0 x1 xs0 xs1 = k0_pay7 x0 x1 xs1 := by
  unfold sout0_F_1
  rw [View.read_writes_eq_canon _ _ _ (scover0_F_1 c i a2 h2 a3 h3 a4 h4 a5 h5 a6 h6 a7 h7 hc0 hc1 hc2 x0 x1 xs0 xs1)]
  unfold kernelRun0_F
  dsimp only
  sl_unfold_words
  rw [View.canon_cons_unit_zero (S := S1024x1) hz]
  simp only [View.readAt_eq_ld, h2.read_unread, h3.read_unread, h6.read_unread, h7.read_unread,
    View.ld_unit_zero (S := S1024x128) hz, View.ld_unit_zero (S := S1024x1) hz]

theorem denOut_F (hc0 : ¬cond0_0 i) (hc1 : cond0_1 i) (hc2 : cond0_2 i) :
    out0_F_3 c i a2 h2 a3 h3 a4 h4 a5 h5 a6 h6 a7 h7 hc0 hc1 hc2 x0 x1 xs0 xs1 = k0_pay1 (k0_pay6 x0 x1 xs0) := by
  unfold out0_F_3
  rw [View.read_writes_eq_canon _ _ _ (cover0_F_3 c i a2 h2 a3 h3 a4 h4 a5 h5 a6 h6 a7 h7 hc0 hc1 hc2 x0 x1 xs0 xs1)]
  unfold kernelRun0_F
  dsimp only
  sl_unfold_words
  rw [View.canon_cons_unit_zero (S := S1024x1) hz, View.readCov_unit_zero (S := S1024x1) _ hz]
  simp only [View.readAt_eq_ld, h2.read_unread, h3.read_unread, h6.read_unread, h7.read_unread,
    View.ld_unit_zero (S := S1024x128) hz, View.ld_unit_zero (S := S1024x1) hz]

theorem numOut_F (hc0 : ¬cond0_0 i) (hc1 : cond0_1 i) (hc2 : cond0_2 i) :
    out0_F_2 c i a2 h2 a3 h3 a4 h4 a5 h5 a6 h6 a7 h7 hc0 hc1 hc2 x0 x1 xs0 xs1 = k0_pay7 x0 x1 xs1 := by
  unfold out0_F_2
  rw [View.read_writes_eq_canon _ _ _ (cover0_F_2 c i a2 h2 a3 h3 a4 h4 a5 h5 a6 h6 a7 h7 hc0 hc1 hc2 x0 x1 xs0 xs1)]
  unfold kernelRun0_F
  dsimp only
  sl_unfold_words
  rw [View.canon_cons_unit_zero (S := S1024x1) hz, View.readCov_unit_zero (S := S1024x1) _ hz]
  simp only [View.readAt_eq_ld, h2.read_unread, h3.read_unread, h6.read_unread, h7.read_unread,
    View.ld_unit_zero (S := S1024x128) hz, View.ld_unit_zero (S := S1024x1) hz]

end Cert.Contrast.Pieces

end
-- ==== Proof.Steps.lean ====
/-
  One step of the accumulation per control case: what the two carried accumulators hold after the body at point t
  (and, at a row tile's last column tile, what the two output blocks hold), as the body's arithmetic applied to the
  point's two input blocks and to what the accumulators held after the point before. Stated for any float instance.
-/
import proofs.«105710_j69896297775438_1_alg».proof.Proof.Pieces

noncomputable section

namespace Cert.Contrast.Steps

open Idealize.ShloMosaic Idealize.ShloMosaic.TcCoe Idealize.SL.Sem
open Cert.KernelIdeal Cert.KernelIdeal.Gen Cert.Contrast.Pieces

variable {F : FTy → Type} [FloatOps F]
variable (m : (ℓ : Loc nD τ sig) → Buf (Elt F) ℓ) (c : Dev nD)

/-- The denominator accumulator as the point before left it. -/
abbrev prevDen (t : Fin cfg0.N) : Vec F S1024x1 .f32 :=
  (outsAt0 m c (t.val - 1) (Nat.lt_of_le_of_lt (Nat.sub_le _ _) t.isLt)).2.2.1

/-- The numerator accumulator as the point before left it. -/
abbrev prevNum (t : Fin cfg0.N) : Vec F S1024x1 .f32 :=
  (outsAt0 m c (t.val - 1) (Nat.lt_of_le_of_lt (Nat.sub_le _ _) t.isLt)).2.2.2

/-- First column tile, on the diagonal: both accumulators restart and add their term. -/
theorem step_A (t : Fin cfg0.N) (h0 : t.val % 16 = 0) (h1 : t.val % 17 = 0) (h2 : ¬t.val % 16 = 15) :
    (outsAt0 m c t.val t.isLt).2.2.1 = k0_pay6 (iblk m c 0 t) (iblk m c 1 t) (k0_pay2 (F := F))
    ∧ (outsAt0 m c t.val t.isLt).2.2.2 = k0_pay7 (iblk m c 0 t) (iblk m c 1 t) (k0_pay3 (F := F)) := by
  rw [outsAt0_A m c t h0 h1 h2]
  dsimp only
  exact ⟨den_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h)),
    num_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h))⟩

/-- First column tile, off the diagonal: both restart, the denominator adds its term. -/
theorem step_D (t : Fin cfg0.N) (h0 : t.val % 16 = 0) (h1 : ¬t.val % 17 = 0) (h2 : ¬t.val % 16 = 15) :
    (outsAt0 m c t.val t.isLt).2.2.1 = k0_pay6 (iblk m c 0 t) (iblk m c 1 t) (k0_pay2 (F := F))
    ∧ (outsAt0 m c t.val t.isLt).2.2.2 = k0_pay3 (F := F) := by
  rw [outsAt0_D m c t h0 h1 h2]
  dsimp only
  exact ⟨den_D c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h)) (fun h => h2 ((hcond0_2 t).mp h)),
    num_D c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h)) (fun h => h2 ((hcond0_2 t).mp h))⟩

/-- A middle column tile, off the diagonal: the denominator adds its term. -/
theorem step_B (t : Fin cfg0.N) (h0 : ¬t.val % 16 = 0) (h1 : ¬t.val % 17 = 0) (h2 : ¬t.val % 16 = 15) :
    (outsAt0 m c t.val t.isLt).2.2.1 = k0_pay6 (iblk m c 0 t) (iblk m c 1 t) (prevDen m c t)
    ∧ (outsAt0 m c t.val t.isLt).2.2.2 = prevNum m c t := by
  rw [outsAt0_B m c t h0 h1 h2]
  dsimp only
  exact ⟨den_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) (fun h => h1 ((hcond0_1 t).mp h)) (fun h => h2 ((hcond0_2 t).mp h)),
    num_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) (fun h => h1 ((hcond0_1 t).mp h)) (fun h => h2 ((hcond0_2 t).mp h))⟩

/-- A middle column tile, on the diagonal: both add their term. -/
theorem step_E (t : Fin cfg0.N) (h0 : ¬t.val % 16 = 0) (h1 : t.val % 17 = 0) (h2 : ¬t.val % 16 = 15) :
    (outsAt0 m c t.val t.isLt).2.2.1 = k0_pay6 (iblk m c 0 t) (iblk m c 1 t) (prevDen m c t)
    ∧ (outsAt0 m c t.val t.isLt).2.2.2 = k0_pay7 (iblk m c 0 t) (iblk m c 1 t) (prevNum m c t) := by
  rw [outsAt0_E m c t h0 h1 h2]
  dsimp only
  exact ⟨den_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) ((hcond0_1 t).mpr h1) (fun h => h2 ((hcond0_2 t).mp h)),
    num_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) ((hcond0_1 t).mpr h1) (fun h => h2 ((hcond0_2 t).mp h))⟩

/-- The last column tile, off the diagonal: the denominator adds its term; then both are written out, the denominator
    with the shift. -/
theorem step_C (t : Fin cfg0.N) (h0 : ¬t.val % 16 = 0) (h1 : ¬t.val % 17 = 0) (h2 : t.val % 16 = 15) :
    (outsAt0 m c t.val t.isLt).2.2.1 = k0_pay6 (iblk m c 0 t) (iblk m c 1 t) (prevDen m c t)
    ∧ (outsAt0 m c t.val t.isLt).2.2.2 = prevNum m c t
    ∧ (outsAt0 m c t.val t.isLt).2.1 = k0_pay1 (k0_pay6 (iblk m c 0 t) (iblk m c 1 t) (prevDen m c t))
    ∧ (outsAt0 m c t.val t.isLt).1 = prevNum m c t := by
  rw [outsAt0_C m c t h0 h1 h2]
  dsimp only
  exact ⟨den_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) (fun h => h1 ((hcond0_1 t).mp h)) ((hcond0_2 t).mpr h2),
    num_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) (fun h => h1 ((hcond0_1 t).mp h)) ((hcond0_2 t).mpr h2),
    denOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) (fun h => h1 ((hcond0_1 t).mp h)) ((hcond0_2 t).mpr h2),
    numOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) (fun h => h1 ((hcond0_1 t).mp h)) ((hcond0_2 t).mpr h2)⟩

/-- The last column tile, on the diagonal: both add their term; then both are written out. -/
theorem step_F (t : Fin cfg0.N) (h0 : ¬t.val % 16 = 0) (h1 : t.val % 17 = 0) (h2 : t.val % 16 = 15) :
    (outsAt0 m c t.val t.isLt).2.2.1 = k0_pay6 (iblk m c 0 t) (iblk m c 1 t) (prevDen m c t)
    ∧ (outsAt0 m c t.val t.isLt).2.2.2 = k0_pay7 (iblk m c 0 t) (iblk m c 1 t) (prevNum m c t)
    ∧ (outsAt0 m c t.val t.isLt).2.1 = k0_pay1 (k0_pay6 (iblk m c 0 t) (iblk m c 1 t) (prevDen m c t))
    ∧ (outsAt0 m c t.val t.isLt).1 = k0_pay7 (iblk m c 0 t) (iblk m c 1 t) (prevNum m c t) := by
  rw [outsAt0_F m c t h0 h1 h2]
  dsimp only
  exact ⟨den_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) ((hcond0_1 t).mpr h1) ((hcond0_2 t).mpr h2),
    num_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) ((hcond0_1 t).mpr h1) ((hcond0_2 t).mpr h2),
    denOut_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) ((hcond0_1 t).mpr h1) ((hcond0_2 t).mpr h2),
    numOut_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (prevDen m c t) (prevNum m c t) (fun h => h0 ((hcond0_0 t).mp h)) ((hcond0_1 t).mpr h1) ((hcond0_2 t).mpr h2)⟩

end Cert.Contrast.Steps

end
-- ==== Proof.LibKeepdimsColumn.lean ====
/-
  Keepdims column layouts read at an index, generic in the extents and in the element type: a vector [a] seen as the
  column [a, 1] (what a sum over the last axis with keepdims leaves), and such a column stretched along its unit axis to
  [a, b] (what dividing every row by its own scalar needs). Each reads the operand at the row coordinate alone.
-/
import Idealize.ShloMosaic.Lib.Pipeline.Value
import Idealize.ShloMosaic.Lib.ValueIdx

namespace Cert.LibKeepdimsColumn

open Idealize.ShloMosaic Idealize.ShloMosaic.ValueIdx

variable {α : Type}

/-- A vector [a] cast to the column [a, 1] reads, at (i, u), the operand at i, whatever the unit coordinate u:
    both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (p, q), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An index of a column [a, 1] is (its row, 0). -/
theorem eq_col {a : ℕ} (y : (⟨2, ![a, 1]⟩ : Shape).Idx) : ∃ r : Fin a, y = ix2 r (0 : Fin 1) := by
  obtain ⟨r, u, rfl⟩ : ∃ (r : Fin a) (u : Fin 1), y = ix2 r u := ⟨y 0, y 1, eq_ix2 y⟩
  obtain rfl : u = 0 := Subsingleton.elim _ _
  exact ⟨r, rfl⟩

end Cert.LibKeepdimsColumn
-- ==== Proof.Payload.lean ====
/-
  The body's arithmetic at an index, over the extended reals, in the specification's words.

  For input blocks X0, X1 (1024 rows of 128 lanes each) and an accumulator column S:
    the scaled block at (r, d) is row r of the block divided by its clamped length, lane d;
    the denominator step at row r is S r plus the sum over the 1024 rows c of X1 of the weight of (row r of X0, row c of X1)
      — the product of the scaled blocks, with the second transposed, is the matrix of inner products, onto a zero
      accumulator, and narrowing the scaled blocks to a shorter float format is the identity here;
    the numerator step at row r is S r plus the weight of (row r of X0, row r of X1);
    the write-out adds the shift; the restart column is zero.
-/
import proofs.«105710_j69896297775438_1_alg».proof.Proof.Gen.KernelIdeal.Skeleton
import proofs.«105710_j69896297775438_1_alg».proof.Proof.Spec
import proofs.«105710_j69896297775438_1_alg».proof.Proof.LibKeepdimsColumn
import Idealize.ShloMosaic.Lib.Pipeline.Value
import Idealize.ShloMosaic.Lib.ValueIdx
import Idealize.ShloMosaic.PureOps.Ideal.Laws

noncomputable section

namespace Cert.Contrast.Body

open Idealize.ShloMosaic Idealize.ShloMosaic.ValueIdx
open Cert.KernelIdeal Cert.KernelIdeal.Gen Cert.Contrast Cert.LibKeepdimsColumn

/-! ## Sums along the rows of a block -/

/-- A block's sum over its 128 lanes, at row r. -/
theorem laneSum128 (src : FVec Ideal S1024x128 .f32) (r : Fin 1024) :
    multiReduction (F := Ideal) .add [1] S1024 src 0x00000000#32 reduces_S1024x128_S1024 (.inl rfl) rfl (ix1 r)
      = ∑ k : Fin 128, src (ix2 r k) := by
  refine (Ideal.multiReduction_add_single src 0x00000000#32 reduces_S1024x128_S1024 (.inl rfl) rfl (ix1 r)).trans ?_
  refine Finset.sum_congr rfl fun k _ => ?_
  exact congrArg src (funext fun a => Fin.ext (by match a with | ⟨0, _⟩ => rfl | ⟨1, _⟩ => rfl))

/-- A square tile's sum over its 1024 columns, at row r. -/
theorem laneSum1024 (src : FVec Ideal S1024x1024 .f32) (r : Fin 1024) :
    multiReduction (F := Ideal) .add [1] S1024 src 0x00000000#32 reduces_S1024x1024_S1024 (.inl rfl) rfl (ix1 r)
      = ∑ k : Fin 1024, src (ix2 r k) := by
  refine (Ideal.multiReduction_add_single src 0x00000000#32 reduces_S1024x1024_S1024 (.inl rfl) rfl (ix1 r)).trans ?_
  refine Finset.sum_congr rfl fun k _ => ?_
  exact congrArg src (funext fun a => Fin.ext (by match a with | ⟨0, _⟩ => rfl | ⟨1, _⟩ => rfl))

/-! ## The product of a block with another's transpose -/

theorem lhs_row (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl

theorem lhs_lane (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q

theorem rhs_row (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl

theorem rhs_lane (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- Entry (r, c) of the product, onto a zero accumulator, contracting the lanes of both operands: the inner product
    of row r of the first and row c of the second. -/
theorem product_at {φ₁ φ₂ : FTy} (L : FVec Ideal S1024x128 φ₁) (R : FVec Ideal S1024x128 φ₂) (r c : Fin 1024) :
    matmul (F := Ideal) dot_S1024x128_S1024x128_S1024x1024_1_1_0_0_n_n none L R (constant S1024x1024 .f32 0x00000000#32) (ix2 r c)
      = ∑ k : Fin 128, L (ix2 r k) * R (ix2 c k) := by
  refine (Ideal.matmul_constant_zero_apply dot_S1024x128_S1024x128_S1024x1024_1_1_0_0_n_n none L R (ix2 r c)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r c) ((contrEquiv1 dot_S1024x128_S1024x128_S1024x1024_1_1_0_0_n_n 128 rfl rfl).symm k) = ix2 r k := funext fun a => Fin.ext (by
    match a with
    | ⟨0, _⟩ => exact lhs_row _ _
    | ⟨1, _⟩ => exact (lhs_lane _ _).trans hk)
  have er : dot_S1024x128_S1024x128_S1024x1024_1_1_0_0_n_n.rhsIdx (ix2 r c) ((contrEquiv1 dot_S1024x128_S1024x128_S1024x1024_1_1_0_0_n_n 128 rfl rfl).symm k) = ix2 c k := funext fun a => Fin.ext (by
    match a with
    | ⟨0, _⟩ => exact rhs_row _ _
    | ⟨1, _⟩ => exact (rhs_lane _ _).trans hk)
  rw [el, er]

/-! ## The payloads -/

/-- The scaled block: each row divided by its clamped length. -/
theorem scaled_at (X : Vec Ideal S1024x128 .f32) (r : Fin 1024) (d : Fin 128) :
    k0_pay4 (F := Ideal) X (ix2 r d) = unitRow (blockRow X r) d := by
  unfold k0_pay4
  show Ideal.div (X (ix2 r d)) (broadcastTo S1024x128 _ broadcasts_S1024x1_S1024x128 (ix2 r d))
    = Ideal.div (X (ix2 r d)) (rowLen (blockRow X r))
  refine congrArg (Ideal.div (X (ix2 r d))) ?_
  refine (broadcastTo_a1_ab_apply _ broadcasts_S1024x1_S1024x128 r d).trans ?_
  show max (Ideal.sqrt (shapeCast S1024x1 _ shapeCasts_S1024_S1024x1 (ix2 r (0 : Fin 1)))) (Ideal.ofBits .f32 0x2B8CBCCC#32)
    = max (Ideal.sqrt (∑ k : Fin 128, X (ix2 r k) * X (ix2 r k))) (Ideal.ofBits .f32 0x2B8CBCCC#32)
  refine congrArg (fun s => max (Ideal.sqrt s) (Ideal.ofBits .f32 0x2B8CBCCC#32)) ?_
  refine (shapeCast_a_a1_apply _ shapeCasts_S1024_S1024x1 r 0).trans ?_
  exact laneSum128 (mulf X X) r

/-- The second operand is scaled by the same arithmetic. -/
theorem scaled_at' (X : Vec Ideal S1024x128 .f32) (r : Fin 1024) (d : Fin 128) :
    k0_pay5 (F := Ideal) X (ix2 r d) = unitRow (blockRow X r) d :=
  scaled_at X r d

/-- The denominator step: the accumulator plus this tile's row sums of weights. -/
theorem denStep_at (X0 X1 : Vec Ideal S1024x128 .f32) (S : Vec Ideal S1024x1 .f32) (r : Fin 1024) :
    k0_pay6 (F := Ideal) X0 X1 S (ix2 r (0 : Fin 1))
      = S (ix2 r (0 : Fin 1)) + ∑ c : Fin 1024, weight (blockRow X0 r) (blockRow X1 c) := by
  unfold k0_pay6
  refine (congrFun (shapeCast_self _ shapeCasts_S1024x1_S1024x1) (ix2 r (0 : Fin 1))).trans ?_
  show S (ix2 r (0 : Fin 1)) + shapeCast S1024x1 _ shapeCasts_S1024_S1024x1 (ix2 r (0 : Fin 1)) = _
  refine congrArg (S (ix2 r (0 : Fin 1)) + ·) ?_
  refine (shapeCast_a_a1_apply _ shapeCasts_S1024_S1024x1 r 0).trans ?_
  refine (laneSum1024 _ r).trans ?_
  refine Finset.sum_congr rfl fun c _ => ?_
  show Ideal.exp (matmul (F := Ideal) dot_S1024x128_S1024x128_S1024x1024_1_1_0_0_n_n none
      (truncf .bf16 (k0_pay4 (F := Ideal) X0) bitsLt_bf16_f32) (truncf .bf16 (k0_pay5 (F := Ideal) X1) bitsLt_bf16_f32)
      (constant S1024x1024 .f32 0x00000000#32) (ix2 r c) * Ideal.ofBits .f32 0x40000000#32) = _
  refine congrArg (fun s => Ideal.exp (s * Ideal.ofBits .f32 0x40000000#32)) ?_
  refine (product_at _ _ r c).trans ?_
  refine Finset.sum_congr rfl fun k _ => ?_
  show k0_pay4 (F := Ideal) X0 (ix2 r k) * k0_pay5 (F := Ideal) X1 (ix2 c k) = _
  rw [scaled_at, scaled_at']

/-- The numerator step: the accumulator plus the weight of the pair of rows that share a position. -/
theorem numStep_at (X0 X1 : Vec Ideal S1024x128 .f32) (S : Vec Ideal S1024x1 .f32) (r : Fin 1024) :
    k0_pay7 (F := Ideal) X0 X1 S (ix2 r (0 : Fin 1))
      = S (ix2 r (0 : Fin 1)) + weight (blockRow X0 r) (blockRow X1 r) := by
  unfold k0_pay7
  refine (congrFun (shapeCast_self _ shapeCasts_S1024x1_S1024x1) (ix2 r (0 : Fin 1))).trans ?_
  show S (ix2 r (0 : Fin 1)) + Ideal.exp (shapeCast S1024x1 _ shapeCasts_S1024_S1024x1 (ix2 r (0 : Fin 1)) * Ideal.ofBits .f32 0x40000000#32) = _
  refine congrArg (fun s => S (ix2 r (0 : Fin 1)) + Ideal.exp (s * Ideal.ofBits .f32 0x40000000#32)) ?_
  refine (shapeCast_a_a1_apply _ shapeCasts_S1024_S1024x1 r 0).trans ?_
  refine (laneSum128 _ r).trans ?_
  refine Finset.sum_congr rfl fun k _ => ?_
  show k0_pay4 (F := Ideal) X0 (ix2 r k) * k0_pay5 (F := Ideal) X1 (ix2 r k) = _
  rw [scaled_at, scaled_at']

/-- The write-out adds the shift. -/
theorem shifted_at (S : Vec Ideal S1024x1 .f32) (y : S1024x1.Idx) :
    k0_pay1 (F := Ideal) S y = S y + Ideal.ofBits .f32 0x322BCC77#32 := rfl

/-- The restart column is zero. -/
theorem restart_at (y : S1024x1.Idx) : k0_pay2 (F := Ideal) y = 0 := by
  unfold k0_pay2
  refine (congrFun (shapeCast_self _ shapeCasts_S1024x1_S1024x1) y).trans ?_
  exact Ideal.ofBits_zero_f32

/-- The numerator's restart column is the same zero. -/
theorem restart_at' (y : S1024x1.Idx) : k0_pay3 (F := Ideal) y = 0 := restart_at y

end Cert.Contrast.Body

end
-- ==== Proof.Blocks.lean ====
/-
  The blocks the body is handed, as rows of the input arrays.

  The grid is 16 row tiles by 16 column tiles, visited row tile by row tile: point t is row tile t / 16, column tile
  t % 16. The first input's block there is its rows 1024 (t / 16) … 1024 (t / 16) + 1023, the second input's block its
  rows 1024 (t % 16) … 1024 (t % 16) + 1023, and both output blocks sit at rows 1024 (t / 16) … of their columns.
-/
import proofs.«105710_j69896297775438_1_alg».proof.Proof.Gen.KernelIdeal.Frame
import proofs.«105710_j69896297775438_1_alg».proof.Proof.Spec
import Idealize.ShloMosaic.Lib.Pipeline.Value

noncomputable section

namespace Cert.Contrast.Blocks

open Idealize.ShloMosaic Idealize.ShloMosaic.TcCoe Idealize.ShloMosaic.ValueIdx Idealize.SL.Sem
open Cert.KernelIdeal Cert.KernelIdeal.Gen Cert.Contrast

variable (m : (ℓ : Loc nD τ sig) → Buf (Elt Ideal) ℓ) (c : Dev nD)

/-- The first input, as rows. -/
abbrev rows0 : Fin 16384 → Fin 128 → EReal := rowsOf (m ((c : Thread nD τ).loc main_arg0))

/-- The second input, as rows. -/
abbrev rows1 : Fin 16384 → Fin 128 → EReal := rowsOf (m ((c : Thread nD τ).loc main_arg1))

/-- The printed index maps, decided over the grid's 256 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

/-- Row r of the first input's block at point t is row r of row tile t / 16 of the first input. -/
theorem block0_row (t : Fin cfg0.N) (r : Fin 1024) :
    blockRow (iblk m c 0 t : Vec Ideal S1024x128 .f32) r = rows0 m c (tileRow (t.val / 16) r) := by
  funext d
  obtain ⟨e0, e1, -⟩ := idx_facts t
  show V m c main_arg0 (((cfg0.win 0).blk t).view.emb (ix2 r d)) = m ((c : Thread nD τ).loc main_arg0) (ix2 (tileRow (t.val / 16) r) d)
  refine congrArg (m ((c : Thread nD τ).loc main_arg0)) ?_
  funext a; apply Fin.ext
  match a with
  | ⟨0, _⟩ =>
    show win0_0.index t (0 : Fin 2) * 1024 + 1 * r.val = (1024 * (t.val / 16) + r.val) % 16384
    have hN : cfg0.N = 256 := N_0
    have ht := t.isLt
    have hr := r.isLt
    rw [e0]; omega
  | ⟨1, _⟩ =>
    show win0_0.index t (1 : Fin 2) * 128 + 1 * d.val = d.val
    rw [e1]; omega

/-- Row r of the second input's block at point t is row r of row tile t % 16 of the second input. -/
theorem block1_row (t : Fin cfg0.N) (r : Fin 1024) :
    blockRow (iblk m c 1 t : Vec Ideal S1024x128 .f32) r = rows1 m c (tileRow (t.val % 16) r) := by
  funext d
  obtain ⟨-, -, e0, e1, -⟩ := idx_facts t
  show V m c main_arg1 (((cfg0.win 1).blk t).view.emb (ix2 r d)) = m ((c : Thread nD τ).loc main_arg1) (ix2 (tileRow (t.val % 16) r) d)
  refine congrArg (m ((c : Thread nD τ).loc main_arg1)) ?_
  funext a; apply Fin.ext
  match a with
  | ⟨0, _⟩ =>
    show win0_1.index t (0 : Fin 2) * 1024 + 1 * r.val = (1024 * (t.val % 16) + r.val) % 16384
    have hr := r.isLt
    rw [e0]; omega
  | ⟨1, _⟩ =>
    show win0_1.index t (1 : Fin 2) * 128 + 1 * d.val = d.val
    rw [e1]; omega

end Cert.Contrast.Blocks

end
-- ==== Proof.Accum.lean ====
/-
  The accumulation over the grid, by induction on the point.

  After point n (row tile n / 16, column tile n % 16), for each of the tile's 1024 rows r:
    the denominator accumulator holds the sum, over the column tiles 0 … n % 16 seen so far, of the weights of row
      1024 (n / 16) + r of the first input against that tile's 1024 rows of the second — it restarts from zero at a row
      tile's first column tile, so nothing of an earlier row tile is left in it;
    the numerator accumulator holds zero until the row tile has met the diagonal (column tile = row tile) and from then
      on the weight of the pair of rows number 1024 (n / 16) + r of the two inputs — zero plus that weight.
  At a row tile's last column tile the output blocks receive the denominator accumulator plus the shift and the
  numerator accumulator, that is, the whole row's denominator and numerator of the specification.
-/
import proofs.«105710_j69896297775438_1_alg».proof.Proof.Steps
import proofs.«105710_j69896297775438_1_alg».proof.Proof.Payload
import proofs.«105710_j69896297775438_1_alg».proof.Proof.Blocks

noncomputable section

namespace Cert.Contrast.Accum

open Idealize.ShloMosaic Idealize.ShloMosaic.TcCoe Idealize.ShloMosaic.ValueIdx Idealize.SL.Sem
open Cert.KernelIdeal Cert.KernelIdeal.Gen
open Cert.Contrast Cert.Contrast.Body Cert.Contrast.Blocks Cert.Contrast.Steps

variable (m : (ℓ : Loc nD τ sig) → Buf (Elt Ideal) ℓ) (c : Dev nD)

/-! ## The body's two steps at a point, over the arrays' rows -/

/-- The denominator step at point t adds, at row r, the weights against column tile t % 16. -/
theorem denStep (t : Fin cfg0.N) (S : Vec Ideal S1024x1 .f32) (r : Fin 1024) :
    k0_pay6 (F := Ideal) (iblk m c 0 t) (iblk m c 1 t) S (ix2 r (0 : Fin 1))
      = S (ix2 r (0 : Fin 1)) + tileSum (rows0 m c (tileRow (t.val / 16) r)) (rows1 m c) (t.val % 16) := by
  refine (denStep_at (iblk m c 0 t) (iblk m c 1 t) S r).trans ?_
  refine congrArg (S (ix2 r (0 : Fin 1)) + ·) ?_
  unfold tileSum
  refine Finset.sum_congr rfl fun q _ => ?_
  rw [block0_row m c t r, block1_row m c t q]

/-- The numerator step at point t adds, at row r, the weight of the pair of rows at position r of the two blocks. -/
theorem numStep (t : Fin cfg0.N) (S : Vec Ideal S1024x1 .f32) (r : Fin 1024) :
    k0_pay7 (F := Ideal) (iblk m c 0 t) (iblk m c 1 t) S (ix2 r (0 : Fin 1))
      = S (ix2 r (0 : Fin 1))
        + weight (rows0 m c (tileRow (t.val / 16) r)) (rows1 m c (tileRow (t.val % 16) r)) := by
  refine (numStep_at (iblk m c 0 t) (iblk m c 1 t) S r).trans ?_
  rw [block0_row m c t r, block1_row m c t r]

/-! ## What the accumulators hold after point n -/

/-- The denominator accumulator after point n, at row r. -/
def denAfter (n : ℕ) (r : Fin 1024) : EReal :=
  ∑ j ∈ Finset.range (n % 16 + 1), tileSum (rows0 m c (tileRow (n / 16) r)) (rows1 m c) j

/-- The numerator accumulator after point n, at row r. -/
def numAfter (n : ℕ) (r : Fin 1024) : EReal :=
  if n / 16 ≤ n % 16 then weight (rows0 m c (tileRow (n / 16) r)) (rows1 m c (tileRow (n / 16) r)) else 0

theorem denAfter_first (n : ℕ) (h0 : n % 16 = 0) (r : Fin 1024) :
    (0 : EReal) + tileSum (rows0 m c (tileRow (n / 16) r)) (rows1 m c) (n % 16) = denAfter m c n r := by
  unfold denAfter
  rw [h0, zero_add]
  exact (Finset.sum_range_one _).symm

theorem denAfter_next (n : ℕ) (h0 : ¬(n + 1) % 16 = 0) (r : Fin 1024) :
    denAfter m c n r + tileSum (rows0 m c (tileRow ((n + 1) / 16) r)) (rows1 m c) ((n + 1) % 16)
      = denAfter m c (n + 1) r := by
  unfold denAfter
  have e1 : (n + 1) / 16 = n / 16 := by omega
  have e2 : (n + 1) % 16 = n % 16 + 1 := by omega
  rw [e1, e2]
  exact (Finset.sum_range_succ _ _).symm

theorem numAfter_diag (n : ℕ) (hn : n < 256) (h1 : n % 17 = 0) (r : Fin 1024) :
    weight (rows0 m c (tileRow (n / 16) r)) (rows1 m c (tileRow (n % 16) r)) = numAfter m c n r := by
  have e : n % 16 = n / 16 := by omega
  unfold numAfter
  rw [e, if_pos (le_refl _)]

theorem numAfter_restart (n : ℕ) (hn : n < 256) (h0 : n % 16 = 0) (h1 : ¬n % 17 = 0) (r : Fin 1024) :
    (0 : EReal) = numAfter m c n r := by
  unfold numAfter
  rw [if_neg (by omega)]

theorem numAfter_keep (n : ℕ) (hn : n + 1 < 256) (h0 : ¬(n + 1) % 16 = 0) (h1 : ¬(n + 1) % 17 = 0) (r : Fin 1024) :
    numAfter m c n r = numAfter m c (n + 1) r := by
  unfold numAfter
  have e1 : (n + 1) / 16 = n / 16 := by omega
  have e2 : (n + 1) % 16 = n % 16 + 1 := by omega
  rw [e1, e2]
  by_cases hle : n / 16 ≤ n % 16
  · rw [if_pos hle, if_pos (by omega)]
  · rw [if_neg hle, if_neg (by omega)]

theorem numAfter_add (n : ℕ) (hn : n + 1 < 256) (h0 : ¬(n + 1) % 16 = 0) (h1 : (n + 1) % 17 = 0) (r : Fin 1024) :
    numAfter m c n r + weight (rows0 m c (tileRow ((n + 1) / 16) r)) (rows1 m c (tileRow ((n + 1) % 16) r))
      = numAfter m c (n + 1) r := by
  have hz : numAfter m c n r = 0 := by
    unfold numAfter
    rw [if_neg (by omega)]
  rw [hz, zero_add]
  exact numAfter_diag m c (n + 1) hn h1 r

/-! ## The induction -/

/-- What the two carried accumulators hold after every point. -/
theorem scratch_after : ∀ (n : ℕ) (h : n < cfg0.N) (r : Fin 1024),
    (outsAt0 m c n h).2.2.1 (ix2 r (0 : Fin 1)) = denAfter m c n r
    ∧ (outsAt0 m c n h).2.2.2 (ix2 r (0 : Fin 1)) = numAfter m c n r := by
  intro n
  induction n with
  | zero =>
    intro h r
    obtain ⟨e1, e2⟩ := step_A m c ⟨0, h⟩ rfl rfl (by show ¬((0 : ℕ) % 16 = 15); decide)
    refine ⟨(congrFun e1 _).trans ?_, (congrFun e2 _).trans ?_⟩
    · refine (denStep m c ⟨0, h⟩ _ r).trans ?_
      rw [restart_at]
      exact denAfter_first m c 0 rfl r
    · refine (numStep m c ⟨0, h⟩ _ r).trans ?_
      rw [restart_at', zero_add]
      exact numAfter_diag m c 0 (by decide) rfl r
  | succ n ih =>
    intro h r
    have hN : cfg0.N = 256 := N_0
    have hn : n + 1 < 256 := hN ▸ h
    have ih' := ih (Nat.lt_of_succ_lt h) r
    by_cases h0 : (n + 1) % 16 = 0
    · have h1 : ¬(n + 1) % 17 = 0 := by omega
      have h2 : ¬(n + 1) % 16 = 15 := by omega
      obtain ⟨e1, e2⟩ := step_D m c ⟨n + 1, h⟩ h0 h1 h2
      refine ⟨(congrFun e1 _).trans ?_, (congrFun e2 _).trans ?_⟩
      · refine (denStep m c ⟨n + 1, h⟩ _ r).trans ?_
        rw [restart_at]
        exact denAfter_first m c (n + 1) h0 r
      · rw [restart_at']
        exact numAfter_restart m c (n + 1) hn h0 h1 r
    · have den_of : ∀ S : Vec Ideal S1024x1 .f32, S (ix2 r (0 : Fin 1)) = denAfter m c n r →
          k0_pay6 (F := Ideal) (iblk m c 0 ⟨n + 1, h⟩) (iblk m c 1 ⟨n + 1, h⟩) S (ix2 r (0 : Fin 1)) = denAfter m c (n + 1) r :=
        fun S hS => (denStep m c ⟨n + 1, h⟩ S r).trans ((congrArg (· + _) hS).trans (denAfter_next m c n h0 r))
      have num_of : ∀ S : Vec Ideal S1024x1 .f32, S (ix2 r (0 : Fin 1)) = numAfter m c n r → (n + 1) % 17 = 0 →
          k0_pay7 (F := Ideal) (iblk m c 0 ⟨n + 1, h⟩) (iblk m c 1 ⟨n + 1, h⟩) S (ix2 r (0 : Fin 1)) = numAfter m c (n + 1) r :=
        fun S hS h1 => (numStep m c ⟨n + 1, h⟩ S r).trans ((congrArg (· + _) hS).trans (numAfter_add m c n hn h0 h1 r))
      by_cases h1 : (n + 1) % 17 = 0
      · by_cases h2 : (n + 1) % 16 = 15
        · obtain ⟨e1, e2, -, -⟩ := step_F m c ⟨n + 1, h⟩ h0 h1 h2
          exact ⟨(congrFun e1 _).trans (den_of _ ih'.1), (congrFun e2 _).trans (num_of _ ih'.2 h1)⟩
        · obtain ⟨e1, e2⟩ := step_E m c ⟨n + 1, h⟩ h0 h1 h2
          exact ⟨(congrFun e1 _).trans (den_of _ ih'.1), (congrFun e2 _).trans (num_of _ ih'.2 h1)⟩
      · by_cases h2 : (n + 1) % 16 = 15
        · obtain ⟨e1, e2, -, -⟩ := step_C m c ⟨n + 1, h⟩ h0 h1 h2
          exact ⟨(congrFun e1 _).trans (den_of _ ih'.1),
            (congrFun e2 _).trans (ih'.2.trans (numAfter_keep m c n hn h0 h1 r))⟩
        · obtain ⟨e1, e2⟩ := step_B m c ⟨n + 1, h⟩ h0 h1 h2
          exact ⟨(congrFun e1 _).trans (den_of _ ih'.1),
            (congrFun e2 _).trans (ih'.2.trans (numAfter_keep m c n hn h0 h1 r))⟩

/-! ## The output blocks at a row tile's last column tile -/

/-- There the numerator block receives the numerator accumulator and the denominator block the denominator
    accumulator plus the shift. -/
theorem outputs_after (t : Fin cfg0.N) (h2 : t.val % 16 = 15) (r : Fin 1024) :
    (outsAt0 m c t.val t.isLt).1 (ix2 r (0 : Fin 1)) = numAfter m c t.val r
    ∧ (outsAt0 m c t.val t.isLt).2.1 (ix2 r (0 : Fin 1)) = denAfter m c t.val r + Ideal.ofBits .f32 0x322BCC77#32 := by
  have hs := scratch_after m c t.val t.isLt r
  have h0 : ¬t.val % 16 = 0 := by omega
  by_cases h1 : t.val % 17 = 0
  · obtain ⟨e1, e2, e3, e4⟩ := step_F m c t h0 h1 h2
    exact ⟨(congrFun (e4.trans e2.symm) _).trans hs.2,
      (congrFun (e3.trans (congrArg (k0_pay1 (F := Ideal)) e1.symm)) _).trans
        (congrArg (· + Ideal.ofBits .f32 0x322BCC77#32) hs.1)⟩
  · obtain ⟨e1, e2, e3, e4⟩ := step_C m c t h0 h1 h2
    exact ⟨(congrFun (e4.trans e2.symm) _).trans hs.2,
      (congrFun (e3.trans (congrArg (k0_pay1 (F := Ideal)) e1.symm)) _).trans
        (congrArg (· + Ideal.ofBits .f32 0x322BCC77#32) hs.1)⟩

/-- At a row tile's last column tile the numerator accumulator is the row's numerator of the specification. -/
theorem numAfter_last (n : ℕ) (hn : n < 256) (h2 : n % 16 = 15) (r : Fin 1024) :
    numAfter m c n r = posAt (rows0 m c) (rows1 m c) (tileRow (n / 16) r) := by
  unfold numAfter posAt
  rw [if_pos (by omega)]

/-- And the denominator accumulator, shifted, the row's denominator: sixteen tiles' sums are the whole row's. -/
theorem denAfter_last (n : ℕ) (hn : n < 256) (h2 : n % 16 = 15) (r : Fin 1024) :
    denAfter m c n r + Ideal.ofBits .f32 0x322BCC77#32 = denAt (rows0 m c) (rows1 m c) (tileRow (n / 16) r) := by
  unfold denAfter denAt
  rw [h2]
  exact congrArg (· + Ideal.ofBits .f32 0x322BCC77#32) (sum_tiles _ _)

end Cert.Contrast.Accum

end
-- ==== Proof.Arrays.lean ====
/-
  The two result columns of the region after the run, each as one function of the input arrays.

  Each column has 16384 entries in 16 blocks of 1024. Block i is written back once, after row tile i's last column tile
  (point 16 i + 15), with what the accumulation left there: for the numerator column the row's numerator of the
  specification, for the denominator column the row's denominator. The sixteen write-backs cover the column, so
  the column ends holding, at every row R, the specification's numerator (or denominator) of R.
-/
import proofs.«105710_j69896297775438_1_alg».proof.Proof.Accum
import Idealize.ShloMosaic.Lib.Pipeline.Value

noncomputable section

namespace Cert.Contrast.Arrays

open Idealize.ShloMosaic Idealize.ShloMosaic.TcCoe Idealize.ShloMosaic.ValueIdx Idealize.SL.Sem
open Idealize.ShloMosaic.Pipeline (Dat)
open Cert.KernelIdeal Cert.KernelIdeal.Gen Cert.LibKeepdimsColumn
open Cert.Contrast Cert.Contrast.Blocks Cert.Contrast.Accum

variable (m : (ℓ : Loc nD τ sig) → Buf (Elt Ideal) ℓ) (c : Dev nD)

/-- The numerators, as a column. -/
def numCol : S16384x1.Idx → EReal := fun y => posAt (rows0 m c) (rows1 m c) (colEquiv y)

/-- The denominators, as a column. -/
def denCol : S16384x1.Idx → EReal := fun y => denAt (rows0 m c) (rows1 m c) (colEquiv y)

/-! ## The numerator column (the region's first result) -/

/-- An index of the column lies in point t's block of it iff each coordinate lies in the block's range. -/
theorem mem_blk2 (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0_0).slice (win0_2.rect t)).set ↔ _
  rw [View.set_slice_whole, Rect.mem_set_unit]
  exact Iff.rfl

/-- What a row tile's last column tile writes back is that row tile's block of the column. -/
theorem flushed2_eq (t : Fin cfg0.N) (hf : (cfg0.win 2).flush t = true) :
    (dats m 0 c).flushed 2 t = ((cfg0.win 2).blk t).view.read (Elt Ideal) (numCol m c) := by
  have h15 : t.val % 16 = 15 := (flush0_2 t).mp hf
  obtain ⟨-, -, -, -, e0, e1, -⟩ := idx_facts t
  show (cfg0.win 2).cut (grid0.coords t) ((dats m 0 c).after 2 t) = _
  rw [after0_2]
  funext y
  obtain ⟨r, rfl⟩ := eq_col (a := 1024) y
  show (outsAt0 m c t.val t.isLt).1 (ix2 r (0 : Fin 1)) = numCol m c (((cfg0.win 2).blk t).view.emb (ix2 r (0 : Fin 1)))
  refine (outputs_after m c t h15 r).1.trans ?_
  refine (numAfter_last m c t.val (N_0 ▸ t.isLt) h15 r).trans ?_
  unfold numCol
  refine congrArg _ (Fin.ext ?_)
  show (1024 * (t.val / 16) + r.val) % 16384 = win0_2.index t (0 : Fin 2) * 1024 + 1 * r.val
  have hN : cfg0.N = 256 := N_0
  have ht := t.isLt
  have hr := r.isLt
  rw [e0]; omega

/-- Every index of the column lies in the block some row tile's last column tile writes back. -/
theorem cover2 (i : S16384x1.Idx) :
    ∃ t : Fin cfg0.N, (cfg0.win 2).flush t = true ∧ i ∈ ((cfg0.win 2).blk t).view.set := by
  have hi0 : (i 0).val < 16384 := idx2_lt0 i
  have hi1 : (i 1).val < 1 := idx2_lt1 i
  have hN : cfg0.N = 256 := N_0
  have hlt : 16 * ((i 0).val / 1024) + 15 < cfg0.N := by rw [hN]; omega
  refine ⟨⟨16 * ((i 0).val / 1024) + 15, hlt⟩, (flush0_2 _).mpr (by show (16 * ((i 0).val / 1024) + 15) % 16 = 15; omega), ?_⟩
  rw [mem_blk2]
  obtain ⟨-, -, -, -, e0, e1, -⟩ := idx_facts ⟨16 * ((i 0).val / 1024) + 15, hlt⟩
  intro a
  match a with
  | ⟨0, _⟩ =>
    show win0_2.index ⟨16 * ((i 0).val / 1024) + 15, hlt⟩ (0 : Fin 2) * 1024 ≤ (i 0).val
      ∧ (i 0).val < win0_2.index ⟨16 * ((i 0).val / 1024) + 15, hlt⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_2.index ⟨16 * ((i 0).val / 1024) + 15, hlt⟩ (1 : Fin 2) * 1 ≤ (i 1).val
      ∧ (i 1).val < win0_2.index ⟨16 * ((i 0).val / 1024) + 15, hlt⟩ (1 : Fin 2) * 1 + 1
    rw [e1]; omega

/-- So the column ends holding it everywhere. -/
theorem final2 : (dats m 0 c).arrAt 2 cfg0.N = numCol m c :=
  (dats m 0 c).arrAt_eq_of_cover 2 (numCol m c) (flushed2_eq m c) (cover2)

/-! ## The denominator column (the region's second result) -/

/-- An index of the column lies in point t's block of it iff each coordinate lies in the block's range. -/
theorem mem_blk3 (t : Fin cfg0.N) (i : S16384x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v0_1).slice (win0_3.rect t)).set ↔ _
  rw [View.set_slice_whole, Rect.mem_set_unit]
  exact Iff.rfl

/-- What a row tile's last column tile writes back is that row tile's block of the column. -/
theorem flushed3_eq (t : Fin cfg0.N) (hf : (cfg0.win 3).flush t = true) :
    (dats m 0 c).flushed 3 t = ((cfg0.win 3).blk t).view.read (Elt Ideal) (denCol m c) := by
  have h15 : t.val % 16 = 15 := (flush0_3 t).mp hf
  obtain ⟨-, -, -, -, -, -, e0, e1⟩ := idx_facts t
  show (cfg0.win 3).cut (grid0.coords t) ((dats m 0 c).after 3 t) = _
  rw [after0_3]
  funext y
  obtain ⟨r, rfl⟩ := eq_col (a := 1024) y
  show (outsAt0 m c t.val t.isLt).2.1 (ix2 r (0 : Fin 1)) = denCol m c (((cfg0.win 3).blk t).view.emb (ix2 r (0 : Fin 1)))
  refine (outputs_after m c t h15 r).2.trans ?_
  refine (denAfter_last m c t.val (N_0 ▸ t.isLt) h15 r).trans ?_
  unfold denCol
  refine congrArg _ (Fin.ext ?_)
  show (1024 * (t.val / 16) + r.val) % 16384 = win0_3.index t (0 : Fin 2) * 1024 + 1 * r.val
  have hN : cfg0.N = 256 := N_0
  have ht := t.isLt
  have hr := r.isLt
  rw [e0]; omega

/-- Every index of the column lies in the block some row tile's last column tile writes back. -/
theorem cover3 (i : S16384x1.Idx) :
    ∃ t : Fin cfg0.N, (cfg0.win 3).flush t = true ∧ i ∈ ((cfg0.win 3).blk t).view.set := by
  have hi0 : (i 0).val < 16384 := idx2_lt0 i
  have hi1 : (i 1).val < 1 := idx2_lt1 i
  have hN : cfg0.N = 256 := N_0
  have hlt : 16 * ((i 0).val / 1024) + 15 < cfg0.N := by rw [hN]; omega
  refine ⟨⟨16 * ((i 0).val / 1024) + 15, hlt⟩, (flush0_3 _).mpr (by show (16 * ((i 0).val / 1024) + 15) % 16 = 15; omega), ?_⟩
  rw [mem_blk3]
  obtain ⟨-, -, -, -, -, -, e0, e1⟩ := idx_facts ⟨16 * ((i 0).val / 1024) + 15, hlt⟩
  intro a
  match a with
  | ⟨0, _⟩ =>
    show win0_3.index ⟨16 * ((i 0).val / 1024) + 15, hlt⟩ (0 : Fin 2) * 1024 ≤ (i 0).val
      ∧ (i 0).val < win0_3.index ⟨16 * ((i 0).val / 1024) + 15, hlt⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_3.index ⟨16 * ((i 0).val / 1024) + 15, hlt⟩ (1 : Fin 2) * 1 ≤ (i 1).val
      ∧ (i 1).val < win0_3.index ⟨16 * ((i 0).val / 1024) + 15, hlt⟩ (1 : Fin 2) * 1 + 1
    rw [e1]; omega

/-- So the column ends holding it everywhere. -/
theorem final3 : (dats m 0 c).arrAt 3 cfg0.N = denCol m c :=
  (dats m 0 c).arrAt_eq_of_cover 3 (denCol m c) (flushed3_eq m c) (cover3)

end Cert.Contrast.Arrays

end
-- ==== Proof.Tail.lean ====
/-
  The whole program's result: the host operations after the region, applied to the two columns it leaves.

  After the region the program divides the numerator column by the denominator column, takes logarithms, sums all
  16384 of them from zero, divides by 16384 and negates. A sum over the indices of a [16384, 1] column is the sum over its
  16384 rows, so this is the loss of the specification at the two inputs' rows.
-/
import proofs.«105710_j69896297775438_1_alg».proof.Proof.Arrays
import Idealize.ShloMosaic.Lib.StableHlo.Run

noncomputable section

namespace Cert.Contrast.Tail

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen
open Cert.Contrast Cert.Contrast.Blocks Cert.Contrast.Arrays

variable (m : (ℓ : Loc nD τ sig) → Buf (Elt Ideal) ℓ) (ρ : Dev nD → PrngReg) (c : Dev nD)

/-- The host operations after the region, as one function of the two columns. -/
def tailOf (p d : (⟨S16384x1, .f32⟩ : BufTy).Contents (Elt Ideal)) : (⟨S_, .f32⟩ : BufTy).Contents (Elt Ideal) :=
  Host.negf (F := Ideal) (Host.divf (F := Ideal)
    (Host.reduceAdd (F := Ideal) (Host.log (F := Ideal) (Host.divf (F := Ideal) p d))
      (constant (F := Ideal) S_ .f32 0x00000000#32) reducesTo_S16384x1_S_d0_1 h_S_)
    (constant (F := Ideal) S_ .f32 0x46800000#32))

/-- The program's result buffer is that function of the two columns the region leaves. -/
theorem result_term :
    Pipeline.afterTail₀ cfgs (dats m) 0 (V0 m) [hostOps1] c main_v5 = tailOf (numCol m c) (denCol m c) := by
  have e2 : Pipeline.withArrays (cfgs 0).spec c (V0 m c) (fun w => (dats m 0 c).arrAt w (cfgs 0).N) (Proc.devRef .tc main_v0_0)
      = numCol m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = denCol m c :=
    (Pipeline.withArrays_arr spec0 launch0.win.arr_inj c _ _ 3).trans (final3 m c)
  unfold Pipeline.afterTail₀ tailOf
  show StableHlo.after hostOps1 _ (Proc.devRef .tc main_v5) = _
  after_results
  rw [e2, e3]

/-- A sum, from zero, over every index of a [16384, 1] column. -/
theorem total (y : (⟨S16384x1, .f32⟩ : BufTy).Contents (Elt Ideal)) (i : S_.Idx) :
    Host.reduceAdd (F := Ideal) y (constant (F := Ideal) S_ .f32 0x00000000#32) reducesTo_S16384x1_S_d0_1 h_S_ i
      = ∑ j : S16384x1.Idx, y j := by
  simp only [Host.reduceAdd, Ideal.hostReduceAdd_def]
  refine (Ideal.hostReduceAdd_total reducesTo_S16384x1_S_d0_1 (fun b => b.elim0) y _ i).trans ?_
  show Ideal.ofBits .f32 0x00000000#32 + _ = _
  rw [Ideal.ofBits_zero_f32, zero_add]

/-- The logarithm of a quotient of two columns, at an index: of the entries there. -/
theorem log_div_at (p d : (⟨S16384x1, .f32⟩ : BufTy).Contents (Elt Ideal)) (j : S16384x1.Idx) :
    Host.log (F := Ideal) (φ := .f32) (Host.divf (F := Ideal) (φ := .f32) p d) j = Ideal.log (Ideal.div (p j) (d j)) := rfl

/-- For the two result columns that is the specification's, at the index's row. -/
theorem log_at (j : S16384x1.Idx) :
    Host.log (F := Ideal) (φ := .f32) (Host.divf (F := Ideal) (φ := .f32) (numCol m c) (denCol m c)) j
      = Ideal.log (Ideal.div (posAt (rows0 m c) (rows1 m c) (colEquiv j)) (denAt (rows0 m c) (rows1 m c) (colEquiv j))) :=
  log_div_at (numCol m c) (denCol m c) j

/-- Summed over the column's indices, they are summed over the 16384 rows. -/
theorem logs_sum :
    (∑ j : S16384x1.Idx, Host.log (F := Ideal) (φ := .f32) (Host.divf (F := Ideal) (φ := .f32) (numCol m c) (denCol m c)) j)
      = ∑ R : Fin 16384, Ideal.log (Ideal.div (posAt (rows0 m c) (rows1 m c) R) (denAt (rows0 m c) (rows1 m c) R)) :=
  Fintype.sum_equiv colEquiv _ _ (log_at m c)

/-- So the tail of the two columns is the loss. -/
theorem tail_value : tailOf (numCol m c) (denCol m c) = fun _ => loss (rows0 m c) (rows1 m c) := by
  funext i
  unfold tailOf
  show FloatOps.hostNegf (FloatOps.hostDivf
      (Host.reduceAdd (F := Ideal) (Host.log (F := Ideal) (Host.divf (F := Ideal) (numCol m c) (denCol m c)))
        (constant (F := Ideal) S_ .f32 0x00000000#32) reducesTo_S16384x1_S_d0_1 h_S_ i)
      (FloatOps.ofBits (F := Ideal) .f32 0x46800000#32)) = _
  rw [total, logs_sum]
  simp only [Ideal.hostNegf_def, Ideal.negf_def, Ideal.hostDivf_def, Ideal.ofBits_def]
  rfl

/-- The idealized kernel's run: every weakly fair execution terminates with the result at the loss of the two inputs'
    rows, and the inputs unchanged. -/
theorem run : θ_run defs (onTc (τ := τ) (main (F := Ideal))) ⟨m, fun _ => 0, ρ⟩ fun r => ∀ c : Dev nD,
      r.2.mem ((c.tc : Thread nD τ).loc main_v5) = (fun _ => loss (rows0 m c) (rows1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (by decide)).trans ((result_term m c).trans (tail_value m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Contrast.Tail

end
-- ==== Proof.lean ====
/-
  A cross-view contrastive loss on two [16384, 128] inputs: the tiled kernel against its plain reference.

  Both programs scale every row of each input by its length clamped below at a small floor, take the similarity of
  row R of the first input and row C of the second as the inner product of the scaled rows, weigh the pair by the
  exponential of the similarity over the temperature 1/2, and return minus the mean over R of
  log (weight (R, R) / (sum over C of weight (R, C) + a small shift)).

  The kernel walks a 16 by 16 grid of tiles of 1024 rows. At each point it scales the two blocks, multiplies the
  first by the transpose of the second, exponentiates twice the product and adds the row sums into a denominator
  accumulator that restarts at each row tile's first column tile; on the diagonal it adds the weight of the rows that
  share a position into a numerator accumulator; at each row tile's last column tile it writes the denominator plus the
  shift, and the numerator, into the row tile's blocks of two result columns. The quotient, logarithm, mean and sign follow
  on the host. The reference does all of it at once on whole arrays, dividing by 1/2 where the kernel multiplies by 2.

  Over the extended reals the two agree at every input: narrowing to a shorter float format is the identity, a matrix
  product onto zero and a row sum are plain sums, a quotient by 1/2 is the product with 2, sixteen groups of 1024 added left to
  right from zero are the sum of all 16384, and zero plus the diagonal weight is that weight. None of these laws needs a
  finite input, so the precondition is used by the frames only.

  The modules: Spec (the mathematics and its two laws), RefIsSpec (the reference's result is the loss), Pieces and Steps
  (what the body leaves in each of its six control cases), Payload (the body's arithmetic at an index), Blocks (the blocks
  as rows of the inputs), Accum (the accumulation, by induction on the point), Arrays (the two result columns), Tail (the
  host operations after the region, and the kernel's run).
-/
import proofs.«105710_j69896297775438_1_alg».proof.Defs
import proofs.«105710_j69896297775438_1_alg».proof.Proof.Gen.Kernel
import proofs.«105710_j69896297775438_1_alg».proof.Proof.Gen.Kernel.Skeleton
import proofs.«105710_j69896297775438_1_alg».proof.Proof.Gen.Kernel.Launch
import proofs.«105710_j69896297775438_1_alg».proof.Proof.Gen.Kernel.Points
import proofs.«105710_j69896297775438_1_alg».proof.Proof.Gen.Kernel.Frame
import proofs.«105710_j69896297775438_1_alg».proof.Proof.Gen.KernelIdeal
import proofs.«105710_j69896297775438_1_alg».proof.Proof.Gen.KernelIdeal.Skeleton
import proofs.«105710_j69896297775438_1_alg».proof.Proof.Gen.KernelIdeal.Launch
import proofs.«105710_j69896297775438_1_alg».proof.Proof.Gen.KernelIdeal.Points
import proofs.«105710_j69896297775438_1_alg».proof.Proof.Gen.KernelIdeal.Frame
import proofs.«105710_j69896297775438_1_alg».proof.Proof.Gen.ReferenceIdeal
import proofs.«105710_j69896297775438_1_alg».proof.Proof.Gen.ReferenceIdeal.Run
import proofs.«105710_j69896297775438_1_alg».proof.Proof.Gen.ReferenceIdeal.Read
import proofs.«105710_j69896297775438_1_alg».proof.Proof.Gen.Pre_finite_inputs
import proofs.«105710_j69896297775438_1_alg».proof.Proof.RefIsSpec
import proofs.«105710_j69896297775438_1_alg».proof.Proof.Tail
import Idealize.ShloMosaic.Adequacy
import Idealize.ShloMosaic.Init

noncomputable section

namespace Cert.Proof

open Idealize.ShloMosaic Idealize.SL.Sem

/-- The kernel as printed runs and leaves its inputs unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its inputs unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from inputs that agree, the kernel's result and the reference's are the same loss of the
    inputs' rows. -/
theorem algebraic : Cert.algebraic_KernelIdeal_ReferenceIdeal := by
  intro m ρ m' ρ' _ hagree
  refine ⟨fun c => (fun _ => Cert.Contrast.loss (Cert.Contrast.Blocks.rows0 m c) (Cert.Contrast.Blocks.rows1 m c)),
    Cert.Contrast.Tail.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v32_eq _ _).trans ((Cert.Contrast.Ref.result_eq _ _).trans ?_))
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
